-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S2x320000 32) (main_arg2 : FVec F S320000 .f32) (main_arg3 : FVec F S256x256 .f32) (main_arg4 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S2x320000 : Shape := ⟨2, ![2, 320000]⟩
abbrev S320000 : Shape := ⟨1, ![320000]⟩
abbrev S256x256 : Shape := ⟨2, ![256, 256]⟩
abbrev S256 : Shape := ⟨1, ![256]⟩
abbrev S50000 : Shape := ⟨1, ![50000]⟩
abbrev S1x320000 : Shape := ⟨2, ![1, 320000]⟩
abbrev S370000 : Shape := ⟨1, ![370000]⟩
abbrev S_ : Shape := ⟨0, ![]⟩
abbrev S370000x1 : Shape := ⟨2, ![370000, 1]⟩
abbrev S370000x256 : Shape := ⟨2, ![370000, 256]⟩
abbrev S1x256 : Shape := ⟨2, ![1, 256]⟩
abbrev S2000x256 : Shape := ⟨2, ![2000, 256]⟩

abbrev nBuf : Space → Nat
  | .hbm => 66
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S320000, .f32⟩
  | .hbm, ⟨3, _⟩ => ⟨S256x256, .f32⟩
  | .hbm, ⟨4, _⟩ => ⟨S256, .f32⟩
  | .hbm, ⟨5, _⟩ => ⟨S50000, .i32⟩
  | .hbm, ⟨6, _⟩ => ⟨S1x320000, .i32⟩
  | .hbm, ⟨7, _⟩ => ⟨S320000, .i32⟩
  | .hbm, ⟨8, _⟩ => ⟨S370000, .i32⟩
  | .hbm, ⟨9, _⟩ => ⟨S1x320000, .i32⟩
  | .hbm, ⟨10, _⟩ => ⟨S320000, .i32⟩
  | .hbm, ⟨11, _⟩ => ⟨S370000, .i32⟩
  | .hbm, ⟨12, _⟩ => ⟨S_, .f32⟩
  | .hbm, ⟨13, _⟩ => ⟨S50000, .f32⟩
  | .hbm, ⟨14, _⟩ => ⟨S370000, .f32⟩
  | .hbm, ⟨15, _⟩ => ⟨S_, .f32⟩
  | .hbm, ⟨16, _⟩ => ⟨S50000, .f32⟩
  | .hbm, ⟨17, _⟩ => ⟨S370000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S370000, .i32⟩
  | .hbm, ⟨29, _⟩ => ⟨S370000, .i1⟩
  | .hbm, ⟨30, _⟩ => ⟨S_, .i32⟩
  | .hbm, ⟨31, _⟩ => ⟨S370000, .i32⟩
  | .hbm, ⟨32, _⟩ => ⟨S370000, .i32⟩
  | .hbm, ⟨33, _⟩ => ⟨S370000, .i32⟩
  | .hbm, ⟨34, _⟩ => ⟨S370000x1, .i32⟩
  | .hbm, ⟨35, _⟩ => ⟨S370000, .f32⟩
  | .hbm, ⟨36, _⟩ => ⟨S370000, .f32⟩
  | .hbm, ⟨37, _⟩ => ⟨S_, .i32⟩
  | .hbm, ⟨38, _⟩ => ⟨S370000, .i32⟩
  | .hbm, ⟨39, _⟩ => ⟨S370000, .i1⟩
  | .hbm, ⟨40, _⟩ => ⟨S_, .i32⟩
  | .hbm, ⟨41, _⟩ => ⟨S370000, .i32⟩
  | .hbm, ⟨42, _⟩ => ⟨S370000, .i32⟩
  | .hbm, ⟨43, _⟩ => ⟨S370000, .i32⟩
  | .hbm, ⟨44, _⟩ => ⟨S370000x1, .i32⟩
  | .hbm, ⟨45, _⟩ => ⟨S370000, .f32⟩
  | .hbm, ⟨46, _⟩ => ⟨S370000, .f32⟩
  | .hbm, ⟨47, _⟩ => ⟨S_, .i32⟩
  | .hbm, ⟨48, _⟩ => ⟨S370000, .i32⟩
  | .hbm, ⟨49, _⟩ => ⟨S370000, .i1⟩
  | .hbm, ⟨50, _⟩ => ⟨S_, .i32⟩
  | .hbm, ⟨51, _⟩ => ⟨S370000, .i32⟩
  | .hbm, ⟨52, _⟩ => ⟨S370000, .i32⟩
  | .hbm, ⟨53, _⟩ => ⟨S370000, .i32⟩
  | .hbm, ⟨54, _⟩ => ⟨S370000x1, .i32⟩
  | .hbm, ⟨55, _⟩ => ⟨S370000x256, .f32⟩
  | .hbm, ⟨56, _⟩ => ⟨S370000x1, .f32⟩
  | .hbm, ⟨57, _⟩ => ⟨S370000x256, .f32⟩
  | .hbm, ⟨58, _⟩ => ⟨S370000x256, .f32⟩
  | .hbm, ⟨59, _⟩ => ⟨S_, .f32⟩
  | .hbm, ⟨60, _⟩ => ⟨S50000x256, .f32⟩
  | .hbm, ⟨61, _⟩ => ⟨S370000x1, .i32⟩
  | .hbm, ⟨62, _⟩ => ⟨S50000x256, .f32⟩
  | .hbm, ⟨63, _⟩ => ⟨S256x256, .f32⟩
  | .hbm, ⟨64, _⟩ => ⟨S1x256, .f32⟩
  | .hbm, ⟨65, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S50000 : S_.BroadcastsInDim S50000 (![] : Fin 0 → Fin S50000.rank)
  bcast_S370000_S370000x1_0 : S370000.BroadcastsInDim S370000x1 (![0] : Fin 1 → Fin S370000x1.rank)
  bcast_S_S370000 : S_.BroadcastsInDim S370000 (![] : Fin 0 → Fin S370000.rank)
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v44) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S320000 : Shape := ⟨1, ![320000]⟩
abbrev S256x256 : Shape := ⟨2, ![256, 256]⟩
abbrev S256 : Shape := ⟨1, ![256]⟩
abbrev S50000 : Shape := ⟨1, ![50000]⟩
abbrev S1x320000 : Shape := ⟨2, ![1, 320000]⟩
abbrev S370000 : Shape := ⟨1, ![370000]⟩
abbrev S_ : Shape := ⟨0, ![]⟩
abbrev S370000x1 : Shape := ⟨2, ![370000, 1]⟩
abbrev S370000x256 : Shape := ⟨2, ![370000, 256]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S320000, .f32⟩
  | .hbm, ⟨3, _⟩ => ⟨S256x256, .f32⟩
  | .hbm, ⟨4, _⟩ => ⟨S256, .f32⟩
  | .hbm, ⟨5, _⟩ => ⟨S50000, .i32⟩
  | .hbm, ⟨6, _⟩ => ⟨S1x320000, .i32⟩
  | .hbm, ⟨7, _⟩ => ⟨S320000, .i32⟩
  | .hbm, ⟨8, _⟩ => ⟨S370000, .i32⟩
  | .hbm, ⟨9, _⟩ => ⟨S1x320000, .i32⟩
  | .hbm, ⟨10, _⟩ => ⟨S320000, .i32⟩
  | .hbm, ⟨11, _⟩ => ⟨S370000, .i32⟩
  | .hbm, ⟨12, _⟩ => ⟨S_, .f32⟩
  | .hbm, ⟨13, _⟩ => ⟨S50000, .f32⟩
  | .hbm, ⟨14, _⟩ => ⟨S370000, .f32⟩
  | .hbm, ⟨15, _⟩ => ⟨S_, .f32⟩
  | .hbm, ⟨16, _⟩ => ⟨S50000, .f32⟩
  | .hbm, ⟨17, _⟩ => ⟨S370000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S370000, .i32⟩
  | .hbm, ⟨29, _⟩ => ⟨S370000, .i1⟩
  | .hbm, ⟨30, _⟩ => ⟨S_, .i32⟩
  | .hbm, ⟨31, _⟩ => ⟨S370000, .i32⟩
  | .hbm, ⟨32, _⟩ => ⟨S370000, .i32⟩
  | .hbm, ⟨33, _⟩ => ⟨S370000, .i32⟩
  | .hbm, ⟨34, _⟩ => ⟨S370000x1, .i32⟩
  | .hbm, ⟨35, _⟩ => ⟨S370000, .f32⟩
  | .hbm, ⟨36, _⟩ => ⟨S370000, .f32⟩
  | .hbm, ⟨37, _⟩ => ⟨S_, .i32⟩
  | .hbm, ⟨38, _⟩ => ⟨S370000, .i32⟩
  | .hbm, ⟨39, _⟩ => ⟨S370000, .i1⟩
  | .hbm, ⟨40, _⟩ => ⟨S_, .i32⟩
  | .hbm, ⟨41, _⟩ => ⟨S370000, .i32⟩
  | .hbm, ⟨42, _⟩ => ⟨S370000, .i32⟩
  | .hbm, ⟨43, _⟩ => ⟨S370000, .i32⟩
  | .hbm, ⟨44, _⟩ => ⟨S370000x1, .i32⟩
  | .hbm, ⟨45, _⟩ => ⟨S370000, .f32⟩
  | .hbm, ⟨46, _⟩ => ⟨S370000, .f32⟩
  | .hbm, ⟨47, _⟩ => ⟨S256x256, .f32⟩
  | .hbm, ⟨48, _⟩ => ⟨S50000x256, .f32⟩
  | .hbm, ⟨49, _⟩ => ⟨S_, .i32⟩
  | .hbm, ⟨50, _⟩ => ⟨S370000, .i32⟩
  | .hbm, ⟨51, _⟩ => ⟨S370000, .i1⟩
  | .hbm, ⟨52, _⟩ => ⟨S_, .i32⟩
  | .hbm, ⟨53, _⟩ => ⟨S370000, .i32⟩
  | .hbm, ⟨54, _⟩ => ⟨S370000, .i32⟩
  | .hbm, ⟨55, _⟩ => ⟨S370000, .i32⟩
  | .hbm, ⟨56, _⟩ => ⟨S370000x1, .i32⟩
  | .hbm, ⟨57, _⟩ => ⟨S370000x256, .f32⟩
  | .hbm, ⟨58, _⟩ => ⟨S370000x1, .f32⟩
  | .hbm, ⟨59, _⟩ => ⟨S370000x256, .f32⟩
  | .hbm, ⟨60, _⟩ => ⟨S370000x256, .f32⟩
  | .hbm, ⟨61, _⟩ => ⟨S_, .f32⟩
  | .hbm, ⟨62, _⟩ => ⟨S50000x256, .f32⟩
  | .hbm, ⟨63, _⟩ => ⟨S370000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S50000 : S_.BroadcastsInDim S50000 (![] : Fin 0 → Fin S50000.rank)
  bcast_S370000_S370000x1_0 : S370000.BroadcastsInDim S370000x1 (![0] : Fin 1 → Fin S370000x1.rank)
  bcast_S_S370000 : S_.BroadcastsInDim S370000 (![] : Fin 0 → Fin S370000.rank)
  transposes_S256x256_S256x256_1_0 : S256x256.Transposes [1, 0] S256x256
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S50000x256_S256x256_S50000x256_1_0_0_1_n_n_wf : DotDims.WF S50000x256 S256x256 S50000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KernelBody.lean ====
/-
  The kernel body's one store, read at an entry of the block.

  At a grid point the body holds a 2000-row block A of the aggregated features, the matching block X of the node
  features, the whole transposed weight T (256 × 256) and the bias as a row B (1 × 256), and stores
  X + max(A·T + B, 0). The two format changes before the product are the identity on the extended reals, the product
  into a zero accumulator is the plain sum over the 256 shared positions, and the bias row is repeated down the rows. So
  at (p, q) of the block

      stored(p, q) = X(p, q) + max( (Σ_k A(p, k) · T(k, q)) + B(0, q), 0 ).
-/
import proofs.«160430_j62921270886996_2_alg».proof.Proof.Gen.KernelIdeal.Skeleton
import proofs.«160430_j62921270886996_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.GcnKernel

open Idealize.ShloMosaic Idealize.ShloMosaic.ValueIdx Cert.KernelIdeal Cert.KernelIdeal.Gen Cert.Lib
open Cert.KernelIdeal.Facts₀ Cert.KernelIdeal.Facts

/-- THE STORED BLOCK AT (p, q). -/
theorem body_apply (A : Vec Ideal S2000x256 .f32) (T : Vec Ideal S256x256 .f32) (B : Vec Ideal S1x256 .f32)
    (X : Vec Ideal S2000x256 .f32) (p : Fin 2000) (q : Fin 256) :
    k0_pay1 (F := Ideal) A T B X (ix2 p q)
      = X (ix2 p q) + max ((∑ k : Fin 256, A (ix2 p k) * T (ix2 k q)) + B (ix2 (0 : Fin 1) q)) 0 := by
  unfold k0_pay1
  rw [addf_apply, maximumf_apply, addf_apply, broadcast_apply, shapeCast_self, shapeCast_self, shapeCast_self,
    broadcastTo_1b_ab_apply]
  have hm : matmul dot_S2000x256_S256x256_S2000x256_1_0_0_1_n_n none (truncf .bf16 A Facts₀.bitsLt_bf16_f32)
      (truncf .bf16 T Facts₀.bitsLt_bf16_f32) (constant (F := Ideal) S2000x256 .f32 0x00000000#32) (ix2 p q)
      = ∑ k : Fin 256, A (ix2 p k) * T (ix2 k q) :=
    matmul_zero_apply Facts₀.dot_S2000x256_S256x256_S2000x256_1_0_0_1_n_n_wf none _ _ p q
  rw [hm]
  refine congrArg (fun z => X (ix2 p q) + max ((∑ k : Fin 256, A (ix2 p k) * T (ix2 k q)) + B (ix2 (0 : Fin 1) q)) z) ?_
  exact Ideal.ofBits_zero_f32

end Cert.GcnKernel

end
-- ==== Proof.KernelValue.lean ====
/-
  From the blocks the grid points write back to the whole result array.

  The grid has 25 points; point t works on rows 2000·t … 2000·t + 1999. It is handed block t of the aggregated
  features A and of the node features X (both 50000 × 256, cut into 25 row blocks), and, at every point, the whole
  transposed weight T and the whole bias row B; it writes back block t of the result. By the body's stored value, the
  entry (p, q) of the block written at point t is

      X(2000·t + p, q) + max( (Σ_k A(2000·t + p, k) · T(k, q)) + B(0, q), 0 ),

  which is the entry (2000·t + p, q) of ONE function of the four arrays, the same for every point. The 25 row blocks
  cover every row (row r lies in block r / 2000), so after the run the result array is that function.
-/
import proofs.«160430_j62921270886996_2_alg».proof.Proof.Gen.KernelIdeal.Value
import proofs.«160430_j62921270886996_2_alg».proof.Proof.KernelBody

noncomputable section

namespace Cert.GcnKernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The row and the column of an entry of a 50000 × 256 array, as numbers below the literal extents. -/
def rowOf (i : S50000x256.Idx) : Fin 50000 := ⟨(i 0).val, (i 0).isLt⟩
def colOf (i : S50000x256.Idx) : Fin 256 := ⟨(i 1).val, (i 1).isLt⟩

/-- THE RESULT AS ONE FUNCTION of the aggregated features A, the node features X, the transposed weight T and the bias
    row B: entry i is X(i) + max((Σ_k A(row i, k) · T(k, col i)) + B(0, col i), 0). -/
def fused (A X : S50000x256.Idx → EReal) (T : S256x256.Idx → EReal) (B : S1x256.Idx → EReal) :
    S50000x256.Idx → EReal :=
  fun i => X i + max ((∑ k : Fin 256, A (ix2 (rowOf i) k) * T (ix2 k (colOf i))) + B (ix2 (0 : Fin 1) (colOf i))) 0

/-- The block index maps over the 25 points: the two row-blocked inputs move with the output's row block and sit at
    column block 0; the weight and the bias stay at block (0, 0); the output's row block is at most 24. -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 24 :=
  (by decide +kernel : ∀ t : Fin grid0.N, _)

/-- Every one of the 25 row blocks is some point's. -/
theorem index_onto : ∀ q0 : Fin 25, ∃ t : Fin cfg0.N, win0_4.index t = ![q0.val, 0] :=
  (by decide +kernel : ∀ q0 : Fin 25, ∃ t : Fin grid0.N, win0_4.index t = ![q0.val, 0])

/-- The array row that row p of point t's block is: 2000 · (the point's row block) + p. -/
def blockRow (t : Fin cfg0.N) (p : Fin 2000) : Fin 50000 :=
  ⟨win0_4.index t (0 : Fin 2) * 2000 + p.val, by
    have h := (index_facts t).2.2.2.2.2.2.2.2.2
    have hp := p.isLt
    omega⟩

/-- Entry (p, q) of the output block at point t is entry (blockRow t p, q) of the result array. -/
theorem out_entry (t : Fin cfg0.N) (p : Fin 2000) (q : Fin 256) :
    ((cfg0.win 4).blk t).view.emb (ix2 p q) = ix2 (blockRow t p) q := by
  obtain ⟨e00, e01, e10, e11, e20, e21, e30, e31, e41, e40⟩ := index_facts t
  funext a; apply Fin.ext
  match a with
  | ⟨0, _⟩ => show win0_4.index t (0 : Fin 2) * 2000 + 1 * p.val = win0_4.index t (0 : Fin 2) * 2000 + p.val; omega
  | ⟨1, _⟩ => show win0_4.index t (1 : Fin 2) * 256 + 1 * q.val = q.val; omega

/-- The node-feature block at point t, at (p, q), is the node features at (blockRow t p, q). -/
theorem read_features (c : Dev nD) (t : Fin cfg0.N) (p : Fin 2000) (q : Fin 256) :
    iblk m c 1 t (ix2 p q) = V m c main_arg0 (ix2 (blockRow t p) q) := by
  obtain ⟨e00, e01, e10, e11, e20, e21, e30, e31, e41, e40⟩ := index_facts t
  show V m c main_arg0 (((cfg0.win 1).blk t).view.emb (ix2 p q)) = _
  have h : ((cfg0.win 1).blk t).view.emb (ix2 p q) = ix2 (blockRow t p) q := by
    funext a; apply Fin.ext
    match a with
    | ⟨0, _⟩ => show win0_1.index t (0 : Fin 2) * 2000 + 1 * p.val = win0_4.index t (0 : Fin 2) * 2000 + p.val; omega
    | ⟨1, _⟩ => show win0_1.index t (1 : Fin 2) * 256 + 1 * q.val = q.val; omega
  rw [h]

/-- The aggregated-feature block at point t, at (p, k), is the aggregated features at (blockRow t p, k). -/
theorem read_aggregated (c : Dev nD) (t : Fin cfg0.N) (p : Fin 2000) (k : Fin 256) :
    iblk m c 0 t (ix2 p k) = V m c main_v44 (ix2 (blockRow t p) k) := by
  obtain ⟨e00, e01, e10, e11, e20, e21, e30, e31, e41, e40⟩ := index_facts t
  show V m c main_v44 (((cfg0.win 0).blk t).view.emb (ix2 p k)) = _
  have h : ((cfg0.win 0).blk t).view.emb (ix2 p k) = ix2 (blockRow t p) k := by
    funext a; apply Fin.ext
    match a with
    | ⟨0, _⟩ => show win0_0.index t (0 : Fin 2) * 2000 + 1 * p.val = win0_4.index t (0 : Fin 2) * 2000 + p.val; omega
    | ⟨1, _⟩ => show win0_0.index t (1 : Fin 2) * 256 + 1 * k.val = k.val; omega
  rw [h]

/-- The weight block at every point is the whole transposed weight. -/
theorem read_weight (c : Dev nD) (t : Fin cfg0.N) (k q : Fin 256) :
    iblk m c 2 t (ix2 k q) = V m c main_v45 (ix2 k q) := by
  obtain ⟨e00, e01, e10, e11, e20, e21, e30, e31, e41, e40⟩ := index_facts t
  show V m c main_v45 (((cfg0.win 2).blk t).view.emb (ix2 k q)) = _
  have h : ((cfg0.win 2).blk t).view.emb (ix2 k q) = ix2 k q := by
    funext a; apply Fin.ext
    match a with
    | ⟨0, _⟩ => show win0_2.index t (0 : Fin 2) * 256 + 1 * k.val = k.val; omega
    | ⟨1, _⟩ => show win0_2.index t (1 : Fin 2) * 256 + 1 * q.val = q.val; omega
  rw [h]

/-- The bias block at every point is the whole bias row. -/
theorem read_bias (c : Dev nD) (t : Fin cfg0.N) (q : Fin 256) :
    iblk m c 3 t (ix2 (0 : Fin 1) q) = V m c main_v46 (ix2 (0 : Fin 1) q) := by
  obtain ⟨e00, e01, e10, e11, e20, e21, e30, e31, e41, e40⟩ := index_facts t
  show V m c main_v46 (((cfg0.win 3).blk t).view.emb (ix2 (0 : Fin 1) q)) = _
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 256 + 1 * q.val = q.val; omega
  rw [h]

/-- WHAT POINT t WRITES BACK is block t of the one function of the four arrays as the region finds them. -/
theorem flushed_eq (c : Dev nD) (t : Fin cfg0.N) :
    (dats m 0 c).flushed 4 t = ((cfg0.win 4).blk t).view.read (Elt Ideal)
      (fused (V m c main_v44) (V m c main_arg0) (V m c main_v45) (V m c main_v46)) := by
  show (cfg0.win 4).cut (grid0.coords t) ((dats m 0 c).after 4 t) = _
  rw [after0_4]
  unfold out0_4
  rw [View.canon_unit_zero origin_zero]
  simp only [View.ld_unit_zero (S := S2000x256) origin_zero, View.ld_unit_zero (S := S256x256) origin_zero,
    View.ld_unit_zero (S := S1x256) origin_zero]
  funext (y : S2000x256.Idx)
  obtain ⟨p, q, rfl⟩ : ∃ (p : Fin 2000) (q : Fin 256), y = ix2 p q := ⟨y 0, y 1, eq_ix2 y⟩
  show k0_pay1 (F := Ideal) (iblk m c 0 t) (iblk m c 2 t) (iblk m c 3 t) (iblk m c 1 t) (ix2 p q)
      = fused (V m c main_v44) (V m c main_arg0) (V m c main_v45) (V m c main_v46)
          (((cfg0.win 4).blk t).view.emb (ix2 p q))
  rw [out_entry, body_apply, read_features, read_bias]
  simp only [read_aggregated, read_weight]
  rfl

/-- An entry of the array is in point t's block iff each coordinate is in the block's range on its axis. -/
theorem mem_block (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v47).slice (win0_4.rect t)).set ↔ _
  rw [View.set_slice_whole, Rect.mem_set_unit]
  exact Iff.rfl

/-- THE BLOCKS COVER THE ARRAY: row r is in the block of the point whose row block is r / 2000. -/
theorem covered (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := index_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- THE RESULT ARRAY after the run is the one function of the four arrays as the region finds them. -/
theorem final (c : Dev nD) :
    (dats m 0 c).arrAt 4 cfg0.N = fused (V m c main_v44) (V m c main_arg0) (V m c main_v45) (V m c main_v46) :=
  (dats m 0 c).arrAt_eq_of_cover 4 _ (fun t _ => flushed_eq m c t) covered

end Cert.GcnKernel

end
-- ==== Proof.KernelPrefix.lean ====
/-
  What the host operations before the region leave in the three arrays the region reads besides the node features.

  Before the fused stage the host computes, from the edge list and the edge attributes, the source and target index
  arrays with the self-loops appended and the normalisation of every edge — by the very operations the reference applies,
  in the same order — then gathers the source node's feature row for every edge, scales it by the edge's normalisation,
  and accumulates the scaled rows into zeros at the target nodes: the aggregated features. It also transposes the weight
  and stands the bias up as a row. Each array is stated here over the same named stages (index arrays, normalisation,
  transposed weight) as the reference's, so that the two sides can be compared without opening the shared chain.
-/
import proofs.«160430_j62921270886996_2_alg».proof.Proof.Gen.KernelIdeal.Frame
import proofs.«160430_j62921270886996_2_alg».proof.Proof.Gen.ReferenceIdeal.Read
import Idealize.ShloMosaic.Lib.StableHlo.Run

noncomputable section

namespace Cert.GcnKernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The transposed weight the region finds is the reference's transposed weight of the same argument. -/
theorem weight_eq (c : Dev nD) :
    (V m c main_v45 : S256x256.Idx → EReal)
      = Cert.ReferenceIdeal.Read.val_main_v32 (F := Ideal) (m ((c : Thread nD τ).loc main_arg3)) := by
  dsimp only [V]
  simp only [hostOps0, hostOps0_1, hostOps0_2, List.flatten_cons, List.flatten_nil, List.append_nil, List.cons_append,
    List.nil_append]
  after_results
  rfl

/-- The bias row the region finds is the bias vector stood up as a 1 × 256 row. -/
theorem bias_eq (c : Dev nD) :
    (V m c main_v46 : S1x256.Idx → EReal)
      = shapeCast S1x256 (m ((c : Thread nD τ).loc main_arg4)) Facts₀.shapeCasts_S256_S1x256 := by
  dsimp only [V]
  simp only [hostOps0, hostOps0_1, hostOps0_2, List.flatten_cons, List.flatten_nil, List.append_nil, List.cons_append,
    List.nil_append]
  after_results
  rfl

set_option maxRecDepth 65536 in
set_option maxHeartbeats 16000000 in
/-- THE AGGREGATED FEATURES the region finds: the scaled gathered rows accumulated into zeros, over the reference's own
    index arrays and normalisation. -/
theorem aggregated_eq (c : Dev nD) :
    (V m c main_v44 : S50000x256.Idx → EReal)
      = Host.scatterAdd (F := Ideal) (φ := .f32) scatter_S50000x256_S370000x1_S370000x256_1_0_0_1
          (Cert.ReferenceIdeal.Read.val_main_v44 (F := Ideal))
          (Cert.ReferenceIdeal.Read.val_main_v45 (F := Ideal) (m ((c : Thread nD τ).loc main_arg1)))
          (mulf (F := Ideal) (φ := .f32) (Host.gather (α := EReal) gather_S50000x256_S370000x1_S370000x256_1_0_n_n_0_1_1256
              (m ((c : Thread nD τ).loc main_arg0))
              (Cert.ReferenceIdeal.Read.val_main_v39 (F := Ideal) (m ((c : Thread nD τ).loc main_arg1))))
            (Cert.ReferenceIdeal.Read.val_main_v42 (F := Ideal) (m ((c : Thread nD τ).loc main_arg1))
              (m ((c : Thread nD τ).loc main_arg2)))) := by
  dsimp only [V]
  simp only [hostOps0, hostOps0_1, hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  simp only [cast_eq]
  simp only [Cert.ReferenceIdeal.Read.val_main_v0,
    Cert.ReferenceIdeal.Read.val_main_v1,
    Cert.ReferenceIdeal.Read.val_main_v2,
    Cert.ReferenceIdeal.Read.val_main_v3,
    Cert.ReferenceIdeal.Read.val_main_v4,
    Cert.ReferenceIdeal.Read.val_main_v5,
    Cert.ReferenceIdeal.Read.val_main_v6,
    Cert.ReferenceIdeal.Read.val_main_cst,
    Cert.ReferenceIdeal.Read.val_main_v7,
    Cert.ReferenceIdeal.Read.val_main_v8,
    Cert.ReferenceIdeal.Read.val_main_cst_0,
    Cert.ReferenceIdeal.Read.val_main_v9,
    Cert.ReferenceIdeal.Read.val_main_v10,
    Cert.ReferenceIdeal.Read.val_main_v11,
    Cert.ReferenceIdeal.Read.val_main_cst_1,
    Cert.ReferenceIdeal.Read.val_main_v12,
    Cert.ReferenceIdeal.Read.val_main_v13,
    Cert.ReferenceIdeal.Read.val_main_v14,
    Cert.ReferenceIdeal.Read.val_main_cst_2,
    Cert.ReferenceIdeal.Read.val_main_call0_v0,
    Cert.ReferenceIdeal.Read.val_main_call0_v1,
    Cert.ReferenceIdeal.Read.val_main_v15,
    Cert.ReferenceIdeal.Read.val_main_c,
    Cert.ReferenceIdeal.Read.val_main_v16,
    Cert.ReferenceIdeal.Read.val_main_v17,
    Cert.ReferenceIdeal.Read.val_main_c_3,
    Cert.ReferenceIdeal.Read.val_main_v18,
    Cert.ReferenceIdeal.Read.val_main_v19,
    Cert.ReferenceIdeal.Read.val_main_v20,
    Cert.ReferenceIdeal.Read.val_main_v21,
    Cert.ReferenceIdeal.Read.val_main_v22,
    Cert.ReferenceIdeal.Read.val_main_v23,
    Cert.ReferenceIdeal.Read.val_main_c_4,
    Cert.ReferenceIdeal.Read.val_main_v24,
    Cert.ReferenceIdeal.Read.val_main_v25,
    Cert.ReferenceIdeal.Read.val_main_c_5,
    Cert.ReferenceIdeal.Read.val_main_v26,
    Cert.ReferenceIdeal.Read.val_main_v27,
    Cert.ReferenceIdeal.Read.val_main_v28,
    Cert.ReferenceIdeal.Read.val_main_v29,
    Cert.ReferenceIdeal.Read.val_main_v30,
    Cert.ReferenceIdeal.Read.val_main_v31,
    Cert.ReferenceIdeal.Read.val_main_v32,
    Cert.ReferenceIdeal.Read.val_main_v33,
    Cert.ReferenceIdeal.Read.val_main_c_6,
    Cert.ReferenceIdeal.Read.val_main_v34,
    Cert.ReferenceIdeal.Read.val_main_v35,
    Cert.ReferenceIdeal.Read.val_main_c_7,
    Cert.ReferenceIdeal.Read.val_main_v36,
    Cert.ReferenceIdeal.Read.val_main_v37,
    Cert.ReferenceIdeal.Read.val_main_v38,
    Cert.ReferenceIdeal.Read.val_main_v39,
    Cert.ReferenceIdeal.Read.val_main_v40,
    Cert.ReferenceIdeal.Read.val_main_v41,
    Cert.ReferenceIdeal.Read.val_main_v42,
    Cert.ReferenceIdeal.Read.val_main_v43,
    Cert.ReferenceIdeal.Read.val_main_cst_8,
    Cert.ReferenceIdeal.Read.val_main_v44,
    Cert.ReferenceIdeal.Read.val_main_v45]
  all_goals rfl

end Cert.GcnKernel

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.LibHostScatterExact.lean ====
/-
  The host's accumulating scatter on the extended reals. Independent of any program.

  A `stablehlo.scatter` whose body adds (jax's `.at[idx].add(v)`, `segment_sum`) leaves at each place of the operand
  the operand's element plus the sum of the updates that land there. On the extended reals no order of addition and
  no rounding is left in it, so as a FUNCTION of its operand, its indices and its updates it is that exact accumulation
  — for any shapes, any dimension numbers, any operand and any updates.
-/
import Idealize.ShloMosaic.PureOps.Ideal

noncomputable section

namespace Cert.Lib

open Idealize.ShloMosaic

/-- THE HOST'S ACCUMULATING SCATTER IS THE EXACT ACCUMULATION, as arrays: any shapes, dimension numbers, operand, indices
    and updates. -/
theorem host_scatter_eq {s si u : Shape} {w : Nat} (d : ScatterDims s si u) (x : FVec Ideal s .f32) (idx : IVec si w)
    (upd : FVec Ideal u .f32) : Host.scatterAdd (F := Ideal) d x idx upd = Ideal.hostScatterAdd d x idx upd :=
  Ideal.hostScatterAdd_def d .single x idx upd

end Cert.Lib

end
-- ==== Proof.ReferenceRead.lean ====
/-
  The reference's result, read at an entry.

  The reference transforms first, h = x · Wᵀ, i.e. h(i, j) = Σ_k x(i, k) · W(j, k); gathers the transformed row of each
  edge's source node and scales it by the edge's normalisation; accumulates the scaled rows into zeros at the edges'
  target nodes; adds the bias, clamps below at zero, and adds x. So at (n, j)

      out(n, j) = x(n, j) + max( (0 + Σ_{e : col e = n} (Σ_k x(src e, k) · W(j, k)) · norm(e)) + b(j), 0 ),

  where src e is the edge's source index clamped into the node range (as a gather clamps) and an edge whose target index
  is outside the node range lands nowhere. The index arrays and the normalisation stay the named stages of the program.
-/
import proofs.«160430_j62921270886996_2_alg».proof.Proof.Gen.ReferenceIdeal.Read
import proofs.«160430_j62921270886996_2_alg».proof.Proof.LibEdgeGatherScatter
import proofs.«160430_j62921270886996_2_alg».proof.Proof.LibHostScatterExact
import Idealize.ShloMosaic.PureOps.Ideal.Laws

noncomputable section

namespace Cert.GcnRead

open Idealize.ShloMosaic Idealize.ShloMosaic.ValueIdx Cert.ReferenceIdeal Cert.ReferenceIdeal.Read Cert.Lib
open Cert.ReferenceIdeal.Facts₀ Cert.ReferenceIdeal.Facts

/-- There is at least one node. -/
theorem nodes_pos : 0 < 50000 := by decide

/-- The edges whose target index, read signed, is node n. -/
abbrev edgesInto (col : IVec ⟨2, ![370000, 1]⟩ 32) (n : Fin 50000) : Finset (Fin 370000) :=
  Finset.univ.filter fun e : Fin 370000 => (col (ix2 e (0 : Fin 1))).toInt = (n.val : Int)

/-- The source node of edge e: its source index read signed and clamped into the node range. -/
abbrev src (row : IVec ⟨2, ![370000, 1]⟩ 32) (e : Fin 370000) : Fin 50000 := clampRow 50000 nodes_pos row e

variable (x0 : (⟨S50000x256, .f32⟩ : BufTy).Contents (Elt Ideal)) (x1 : (⟨S2x320000, .i32⟩ : BufTy).Contents (Elt Ideal))
  (x2 : (⟨S320000, .f32⟩ : BufTy).Contents (Elt Ideal)) (x3 : (⟨S256x256, .f32⟩ : BufTy).Contents (Elt Ideal))
  (x4 : (⟨S256, .f32⟩ : BufTy).Contents (Elt Ideal))

/-- The transformed row of node r at column j: h(r, j) = Σ_k x(r, k) · W(j, k), the weight read through its transpose. -/
theorem transformed_apply (r : Fin 50000) (j : Fin 256) :
    val_main_v33 (F := Ideal) x0 x3 (ix2 r j) = ∑ k : Fin 256, x0 (ix2 r k) * x3 (ix2 j k) := by
  rw [val_main_v33_apply]
  refine Finset.sum_congr rfl fun k _ => ?_
  rw [val_main_v32_apply]
  have hl : lidx_main_v33 (ix2 r j) k = ix2 r k :=
    funext fun a => Fin.ext (by match a with | ⟨0, _⟩ => rfl | ⟨1, _⟩ => rfl)
  have hr : idx_main_v32 (ridx_main_v33 (ix2 r j) k) = ix2 j k :=
    funext fun a => Fin.ext (by match a with | ⟨0, _⟩ => rfl | ⟨1, _⟩ => rfl)
  rw [hl, hr]

/-- The normalisation spread along the feature axis, at (e, j), is the normalisation of edge e. -/
theorem norm_spread_apply (e : Fin 370000) (j : Fin 256) :
    val_main_v42 (F := Ideal) x1 x2 (ix2 e j) = val_main_v31 (F := Ideal) x1 x2 (ix1 e) := by
  rw [val_main_v42_apply, val_main_v41_apply]
  exact congrArg _ (funext fun a => Fin.ext (by match a with | ⟨0, _⟩ => rfl))

/-- The transposed weight at (k, j) is the weight at (j, k). -/
theorem transposed_weight_apply (k j : Fin 256) : val_main_v32 (F := Ideal) x3 (ix2 k j) = x3 (ix2 j k) := by
  rw [val_main_v32_apply]
  exact congrArg x3 (funext fun a => Fin.ext (by match a with | ⟨0, _⟩ => rfl | ⟨1, _⟩ => rfl))

/-- The scaled transformed row of edge e at column j. -/
theorem message_apply (e : Fin 370000) (j : Fin 256) :
    val_main_v43 (F := Ideal) x0 x1 x2 x3 (ix2 e j)
      = (∑ k : Fin 256, x0 (ix2 (src (val_main_v39 (F := Ideal) x1) e) k) * x3 (ix2 j k))
          * val_main_v31 (F := Ideal) x1 x2 (ix1 e) := by
  have h40 : val_main_v40 (F := Ideal) x0 x1 x3 (ix2 e j)
      = val_main_v33 (F := Ideal) x0 x3 (ix2 (src (val_main_v39 (F := Ideal) x1) e) j) :=
    gather_rows_apply nodes_pos gather_S50000x256_S370000x1_S370000x256_1_0_n_n_0_1_1256_wf _ _ e j
  rw [val_main_v43_apply, Ideal.mulf_def, h40, norm_spread_apply, transformed_apply]

/-- THE REFERENCE AT (n, j). -/
theorem reference_apply (n : Fin 50000) (j : Fin 256) :
    val_main_v51 (F := Ideal) x0 x1 x2 x3 x4 (ix2 n j)
      = x0 (ix2 n j) + max (((0 : EReal) + ∑ e ∈ edgesInto (val_main_v45 (F := Ideal) x1) n,
          (∑ k : Fin 256, x0 (ix2 (src (val_main_v39 (F := Ideal) x1) e) k) * x3 (ix2 j k))
            * val_main_v31 (F := Ideal) x1 x2 (ix1 e)) + x4 (ix1 j)) 0 := by
  have hz44 : val_main_v44 (F := Ideal) (ix2 n j) = 0 := by
    rw [val_main_v44_apply, val_main_cst_8_apply, Ideal.ofBits_def, Ideal.ofBits_zero_f32]
  have hz1 : val_main_call1_v0 (F := Ideal) (ix2 n j) = 0 := by
    rw [val_main_call1_v0_apply, val_main_call1_cst_apply, Ideal.ofBits_def, Ideal.ofBits_zero_f32]
  have hb : val_main_v48 (F := Ideal) x4 (ix2 n j) = x4 (ix1 j) := by
    rw [val_main_v48_apply, val_main_v47_apply]
    exact congrArg x4 (funext fun a => Fin.ext (by match a with | ⟨0, _⟩ => rfl))
  have e46 : val_main_v46 (F := Ideal) x0 x1 x2 x3
      = Ideal.hostScatterAdd (rowScatterDims 50000 256 370000 scatter_S50000x256_S370000x1_S370000x256_1_0_0_1_wf)
          (val_main_v44 (F := Ideal)) (val_main_v45 (F := Ideal) x1) (val_main_v43 (F := Ideal) x0 x1 x2 x3) :=
    host_scatter_eq _ _ _ _
  rw [val_main_v51_apply, val_main_v50_apply, val_main_v49_apply, e46, scatterAdd_rows_apply, hz44, hz1, hb,
    Ideal.addf_def, Ideal.addf_def, Ideal.maximumf_def]
  refine congrArg (fun s => x0 (ix2 n j) + max (((0 : EReal) + s) + x4 (ix1 j)) 0) ?_
  exact Finset.sum_congr rfl fun e _ => message_apply x0 x1 x2 x3 e j

end Cert.GcnRead

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«160430_j62921270886996_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.LibBandSplit.lean ====
/-
  Sums over an index range cut into bands, and three matrices joined side by side read at an index.

  A sum over the 2n + 1 positions 0 … 2n is the sum over the first n, plus the sum over the next n, plus the last
  term; a sum over 2n positions is the sum over the first n plus the sum over the next n. Only the laws of a commutative
  monoid are used, so the statements hold over the extended reals with no finiteness side condition.

  Three matrices of A, B and C columns joined side by side (a concatenation along axis 1 into T columns): at column
  j < A the join reads the first at column j, at column A + i it reads the second at column i, and at column A + B + i
  it reads the third at column i. Any element type.
-/
import Mathlib.Algebra.BigOperators.Fin
import Idealize.ShloMosaic.Lib.Pipeline.Value
import Idealize.ShloMosaic.Lib.ValueIdx

namespace Cert.Lib

open Idealize.ShloMosaic Idealize.ShloMosaic.ValueIdx

/-- A sum over 2n positions is the sum over the first n plus the sum over the last n. -/
theorem sum_two_bands {M : Type*} [AddCommMonoid M] (n : ℕ) (f : Fin (n + n) → M) :
    ∑ k, f k = (∑ k : Fin n, f ⟨k.val, by have := k.isLt; omega⟩) + (∑ k : Fin n, f ⟨n + k.val, by have := k.isLt; omega⟩) := by
  rw [Fin.sum_univ_add]
  rfl

/-- A sum over 2n + 1 positions is the sum over the first n, plus the sum over the next n, plus the last term. -/
theorem sum_two_bands_and_last {M : Type*} [AddCommMonoid M] (n : ℕ) (f : Fin (n + n + 1) → M) :
    ∑ k, f k = (∑ k : Fin n, f ⟨k.val, by have := k.isLt; omega⟩) + (∑ k : Fin n, f ⟨n + k.val, by have := k.isLt; omega⟩)
      + f ⟨n + n, by omega⟩ := by
  rw [Fin.sum_univ_castSucc, Fin.sum_univ_add]
  rfl

namespace ConcatTriple

variable {α : Type}

/-- Three matrices joined side by side, read in the FIRST one's columns. -/
theorem cols_first {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin A)
    (hi : i.val = j.val) :
    concatenate ⟨2, ![R, T]⟩ 1 [⟨⟨2, ![R, A]⟩, x₁⟩, ⟨⟨2, ![R, B]⟩, x₂⟩, ⟨⟨2, ![R, C]⟩, x₃⟩] h (ix2 r j) = x₁ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 0 (Nat.zero_lt_succ _) ⟨2, ![R, A]⟩ x₁ rfl rfl 0 rfl (ix2 r i)
    (fun b => match b with
      | ⟨0, _⟩ => fun _ => rfl
      | ⟨1, _⟩ => fun hb => absurd rfl hb)
    (by show 0 + i.val = j.val; omega)

/-- Three matrices joined side by side, read in the SECOND one's columns: column A + i of the join is its column i. -/
theorem cols_second {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin B)
    (hi : A + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₂ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 1 (Nat.succ_lt_succ (Nat.zero_lt_succ _)) ⟨2, ![R, B]⟩ x₂ rfl rfl A
    (by show A + 0 = A; rfl) (ix2 r i)
    (fun b => match b with
      | ⟨0, _⟩ => fun _ => rfl
      | ⟨1, _⟩ => fun hb => absurd rfl hb)
    hi

/-- Three matrices joined side by side, read in the THIRD one's columns: column A + B + i of the join is its column i. -/
theorem cols_third {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin C)
    (hi : A + B + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₃ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 2 (Nat.succ_lt_succ (Nat.succ_lt_succ (Nat.zero_lt_succ _))) ⟨2, ![R, C]⟩ x₃ rfl rfl (A + B)
    (by show A + (B + 0) = A + B; rfl) (ix2 r i)
    (fun b => match b with
      | ⟨0, _⟩ => fun _ => rfl
      | ⟨1, _⟩ => fun hb => absurd rfl hb)
    hi

end ConcatTriple

end Cert.Lib
-- ==== Proof.LibEdgeStack.lean ====
/-
  An edge list read through a PAIR of integers, an accumulation into a vector, and a three-column accumulation taken
  apart. Independent of any program.

  An edge list of length `E` carries, per edge `e`, integers in the columns of a start-index matrix.

  1. PAIR GATHER.  A one-column matrix `x : [N, 1]` read through start indices `[E, 2]` (both operand axes collapsed,
     slices `[1, 1]`, start index map `[0, 1]`) gives `[E]`, whose element `e` is `x` at row `idx[e, 0]` read signed and
     clamped into `[0, N − 1]`, column `0`: the second component is clamped into `[0, 1 − 1] = [0, 0]`, so it is `0`
     whatever `idx[e, 1]` holds.

  2. ACCUMULATION INTO A VECTOR over the extended reals.  Updates `[E]` added into `x : [N]` at the places the edges'
     integers `idx[e, 0]` name (no window axis, inserted axis 0) leave at `n` the value `x n` plus the sum, over the edges
     whose integer, read signed, IS `n`, of the update at `e`; an edge whose integer is outside `[0, N)` lands nowhere.

  3. The pair gather through start indices whose two columns are `a` and `b` (joined side by side) is the vector gather,
     through `a` alone, of the column flattened to a vector: both read `x` at `(clampRow a e, 0)`.

  4. Three vectors `C`, `S`, `O` over the edges, each stood up as a column and the three joined side by side, accumulated
     into a constant `[N, 3]` matrix at the rows the edges' integers name: column `k` of the result at row `n` is the
     constant plus the sum of the `k`-th vector over the edges whose integer is `n` — the columns do not mix.  Hence
     columns `0` and `1`, each cut out, flattened, stood up again and the two joined, are the accumulation of the
     two-column matrix `[C | S]` into the constant `[N, 2]` matrix; and column `2`, cut out and flattened, is the vector
     accumulation of `O` of item 2.
-/
import proofs.«160430_j62921270886996_2_alg».proof.Proof.LibEdgeGatherScatter
import proofs.«160430_j62921270886996_2_alg».proof.Proof.LibEdgeGatherVec
import proofs.«160430_j62921270886996_2_alg».proof.Proof.LibConcatPair
import proofs.«160430_j62921270886996_2_alg».proof.Proof.LibBandSplit
import Idealize.ShloMosaic.Lib.ValueLayout

noncomputable section

namespace Cert.Lib

open Idealize.ShloMosaic Idealize.ShloMosaic.ValueIdx

/-! ## The gather through a pair of integers -/

/-- The dimension numbers of the gather that reads one element of `x : [N, 1]` per edge through start indices `[E, 2]`:
    both operand axes collapsed, the start index's two components going to axes 0 and 1. -/
abbrev pairGatherDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- ONE ELEMENT OF A ONE-COLUMN MATRIX at `e`: the operand at row `idx[e, 0]` (signed, clamped into `[0, N − 1]`),
    column `0` — the column component is clamped into `[0, 0]`. -/
theorem gather_pair_apply {α : Type} {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (pairGatherDims N E wf) x idx (ix1 e)
      = x (ix2 (⟨min (idx (ix2 e (0 : Fin 2))).toInt.toNat (N - 1), by omega⟩ : Fin N) (0 : Fin 1)) := by
  unfold Host.gather
  congr 1
  funext a
  refine Fin.ext ?_
  match a with
  | ⟨0, _⟩ =>
    show (pairGatherDims N E wf).start (ix1 e) idx 0 + (pairGatherDims N E wf).batchCoord (ix1 e) 0
        + (pairGatherDims N E wf).offCoord (ix1 e) 0 = _
    rw [GatherDims.batchCoord_eq_zero _ _ _ List.not_mem_nil,
      GatherDims.offCoord_eq_zero _ _ _ (fun h => ((GatherDims.mem_sKept _ _).mp h).1 (show (0 : Fin 2) ∈ ([0, 1] : List (Fin 2)) from by decide))]
    simp only [Nat.add_zero]
    unfold GatherDims.start
    rw [dif_pos (show (0 : Fin 2) ∈ (pairGatherDims N E wf).startIndexMap from (show (0 : Fin 2) ∈ ([0, 1] : List (Fin 2)) from by decide))]
    have hsi : (pairGatherDims N E wf).siIdx (ix1 e) ⟨List.idxOf (0 : Fin 2) (pairGatherDims N E wf).startIndexMap,
        List.idxOf_lt_length_iff.2 (show (0 : Fin 2) ∈ ([0, 1] : List (Fin 2)) from by decide)⟩ = ix2 e (0 : Fin 2) := by
      funext b; refine Fin.ext ?_
      match b with
      | ⟨0, _⟩ => rfl
      | ⟨1, _⟩ => rfl
    rw [hsi]
    rfl
  | ⟨1, _⟩ =>
    show (pairGatherDims N E wf).start (ix1 e) idx 1 + (pairGatherDims N E wf).batchCoord (ix1 e) 1
        + (pairGatherDims N E wf).offCoord (ix1 e) 1 = 0
    rw [GatherDims.batchCoord_eq_zero _ _ _ List.not_mem_nil,
      GatherDims.offCoord_eq_zero _ _ _ (fun h => ((GatherDims.mem_sKept _ _).mp h).1 (show (1 : Fin 2) ∈ ([0, 1] : List (Fin 2)) from by decide))]
    simp only [Nat.add_zero]
    have hle := (pairGatherDims N E wf).start_le (ix1 e) idx 1
    have h0 : (⟨2, ![N, 1]⟩ : Shape).size 1 - (pairGatherDims N E wf).sliceSizes 1 = 0 := rfl
    omega

/-! ## The accumulating scatter into a vector, over the extended reals -/

/-- The dimension numbers of the accumulation of updates `[E]` into an operand `[N]` at scatter indices `[E, 1]`:
    no window axis, the operand's one axis inserted. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w)

/-- The window of update `e` starts at edge `e`'s integer, read signed, … -/
theorem vecScatter_start0 (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and has no extent: the window coordinate is zero. -/
theorem vecScatter_window0 (j : (⟨1, ![E]⟩ : Shape).Idx) : (vecScatterDims N E wf).window j 0 = 0 := by
  unfold ScatterDims.window
  rw [dif_neg (fun h => ((mem_sKept_iff _ _).mp h) (List.mem_singleton.mpr rfl))]

/-- WHERE UPDATE `e` LANDS: at `n` exactly when edge `e`'s integer, read signed, is `n`. -/
theorem vecScatter_resultIdx_iff (e : Fin E) (n : Fin N) :
    (vecScatterDims N E wf).resultIdx? (ix1 e) idx = some (ix1 n)
      ↔ (idx (ix2 e (0 : Fin 1))).toInt = (n.val : Int) := by
  have h0 : (vecScatterDims N E wf).start (ix1 e) idx 0 + ((vecScatterDims N E wf).window (ix1 e) 0 : Int)
      = (idx (ix2 e (0 : Fin 1))).toInt := by
    rw [vecScatter_start0, vecScatter_window0]; simp
  constructor
  · intro hs
    unfold ScatterDims.resultIdx? at hs
    split at hs
    · rename_i h
      have hf := Option.some.inj hs
      have e0 : ((vecScatterDims N E wf).start (ix1 e) idx 0 + ((vecScatterDims N E wf).window (ix1 e) 0 : Int)).toNat
          = n.val := congrArg Fin.val (congrFun hf 0)
      have b0 : 0 ≤ (vecScatterDims N E wf).start (ix1 e) idx 0 + ((vecScatterDims N E wf).window (ix1 e) 0 : Int) :=
        (h 0).1
      rw [h0] at e0 b0
      omega
    · exact absurd hs (by simp)
  · intro hr
    have hn : n.val < N := n.isLt
    have h : ∀ a, 0 ≤ (vecScatterDims N E wf).start (ix1 e) idx a + ((vecScatterDims N E wf).window (ix1 e) a : Int)
        ∧ (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [h0, hr]; omega
    unfold ScatterDims.resultIdx?
    rw [dif_pos h]
    refine congrArg some (funext fun a => Fin.ext ?_)
    match a with
    | ⟨0, _⟩ =>
      show ((vecScatterDims N E wf).start (ix1 e) idx 0 + ((vecScatterDims N E wf).window (ix1 e) 0 : Int)).toNat = n.val
      rw [h0, hr]; omega

/-- ELEMENTS ACCUMULATED INTO A VECTOR at `n`: the operand there plus the updates `e` of the edges whose integer is `n`. -/
theorem scatterAdd_vec_apply (x : (⟨1, ![N]⟩ : Shape).Idx → EReal) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  have key : ∀ j : (⟨1, ![E]⟩ : Shape).Idx, (vecScatterDims N E wf).resultIdx? j idx = some (ix1 n) →
      (idx (ix2 (j 0 : Fin E) (0 : Fin 1))).toInt = (n.val : Int) ∧ ix1 (j 0 : Fin E) = j := by
    intro j hj
    obtain ⟨e, rfl⟩ : ∃ e : Fin E, j = ix1 e := ⟨j 0, eq_ix1 j⟩
    exact ⟨(vecScatter_resultIdx_iff wf idx e n).mp hj, rfl⟩
  refine Finset.sum_nbij' (fun j => (j 0 : Fin E)) (fun e => ix1 e) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (vecScatter_resultIdx_iff wf idx e n).mpr (Finset.mem_filter.mp he).2⟩
  · intro j hj
    exact (key j (Finset.mem_filter.mp hj).2).2
  · intro e _
    rfl
  · intro j hj
    exact congrArg upd (key j (Finset.mem_filter.mp hj).2).2.symm

end Vec

/-! ## A one-column matrix flattened, a vector stood up as a column, a column cut out -/

section Layout
variable {α : Type}

/-- An `[N, 1]` matrix cast to `[N]` reads, at `r`, the matrix at `(r, 0)`. -/
theorem shapeCast_col_apply {N : Nat} (x : (⟨2, ![N, 1]⟩ : Shape).Idx → α)
    (h : (⟨2, ![N, 1]⟩ : Shape).ShapeCasts ⟨1, ![N]⟩) (r : Fin N) :
    shapeCast ⟨1, ![N]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A vector `[M]` stood up as a one-column matrix `[M, 1]` (broadcast along axis 0) reads, at `(r, c)`, the vector
    at `r`. -/
theorem broadcastInDim_col_apply {M : Nat} (v : (⟨1, ![M]⟩ : Shape).Idx → α)
    (hb : (⟨1, ![M]⟩ : Shape).BroadcastsInDim ⟨2, ![M, 1]⟩ (![0] : Fin 1 → Fin 2)) (r : Fin M) (c : Fin 1) :
    broadcastInDim ⟨2, ![M, 1]⟩ ![0] hb v (ix2 r c) = v (ix1 r) :=
  broadcastInDim_apply _ hb v _ _ (fun a => by
    match a with
    | ⟨0, _⟩ =>
      show r.val = if M = 1 then 0 else r.val
      have hr := r.isLt
      split
      · omega
      · rfl)

/-- Column `k` of a matrix `[N, D]`, cut out, flattened to a vector and stood up as a column again, reads, at
    `(n, c)`, the matrix at `(n, k)`. -/
theorem col_cut_apply {N D : Nat} (k : Nat) (X : (⟨2, ![N, D]⟩ : Shape).Idx → α)
    (hs : (⟨2, ![N, D]⟩ : Shape).Slices ![0, k] ⟨2, ![N, 1]⟩)
    (hsc : (⟨2, ![N, 1]⟩ : Shape).ShapeCasts ⟨1, ![N]⟩)
    (hb : (⟨1, ![N]⟩ : Shape).BroadcastsInDim ⟨2, ![N, 1]⟩ (![0] : Fin 1 → Fin 2))
    (n : Fin N) (c : Fin 1) (col : Fin D) (hcol : col.val = k) :
    broadcastInDim ⟨2, ![N, 1]⟩ ![0] hb (shapeCast ⟨1, ![N]⟩ (extractStridedSlice ⟨2, ![N, 1]⟩ ![0, k] X hs) hsc) (ix2 n c)
      = X (ix2 n col) := by
  rw [broadcastInDim_col_apply, shapeCast_col_apply, slice2_axis1_apply k X hs n (0 : Fin 1) col (by rw [hcol]; rfl)]

end Layout

/-! ## The pair gather is the vector gather of the flattened column -/

/-- Start indices whose two columns are `a` and `b`: the pair gather of `θ : [N, 1]` through them is the vector gather,
    through `a`, of `θ` flattened to `[N]` — both read `θ` at `(clampRow a e, 0)`. -/
theorem gather_pair_concat_eq_gather_vec {α : Type} {N E w : Nat}
    (wfR : GatherDims.WF ⟨2, ![N, 1]⟩ ⟨2, ![E, 2]⟩ ⟨1, ![E]⟩ [] [0, 1] [] [0, 1] [] 1 ![1, 1])
    (wfK : GatherDims.WF ⟨1, ![N]⟩ ⟨2, ![E, 1]⟩ ⟨1, ![E]⟩ [] [0] [] [0] [] 1 ![1])
    (θ : (⟨2, ![N, 1]⟩ : Shape).Idx → α) (a b : IVec ⟨2, ![E, 1]⟩ w)
    (hc : Shape.Concatenates [⟨2, ![E, 1]⟩, ⟨2, ![E, 1]⟩] ⟨2, ![E, 2]⟩ 1)
    (hsc : (⟨2, ![N, 1]⟩ : Shape).ShapeCasts ⟨1, ![N]⟩) (e : Fin E) :
    Host.gather (pairGatherDims N E wfR) θ
        (concatenate ⟨2, ![E, 2]⟩ 1 [⟨⟨2, ![E, 1]⟩, a⟩, ⟨⟨2, ![E, 1]⟩, b⟩] hc) (ix1 e)
      = Host.gather (vecGatherDims N E wfK) (shapeCast ⟨1, ![N]⟩ θ hsc) a (ix1 e) := by
  have hN : 0 < N := (vecGatherDims N E wfK).slice_le 0
  rw [gather_pair_apply hN, gather_vec_apply hN, shapeCast_col_apply]
  have hcat := ConcatPair.cols_left a b hc e (0 : Fin 2) (0 : Fin 1) rfl
  refine congrArg θ (funext fun ax => Fin.ext ?_)
  match ax with
  | ⟨0, _⟩ => exact congrArg (fun v : BitVec w => min v.toInt.toNat (N - 1)) hcat
  | ⟨1, _⟩ => rfl

/-! ## A three-column accumulation taken apart -/

section Stack
variable {N E w : Nat} (z : EReal) (idx : IVec ⟨2, ![E, 1]⟩ w) (C S O : (⟨1, ![E]⟩ : Shape).Idx → EReal)
  (hbE : (⟨1, ![E]⟩ : Shape).BroadcastsInDim ⟨2, ![E, 1]⟩ (![0] : Fin 1 → Fin 2))

/-- Column 0 of the three-column accumulation at row `n`: the constant plus the sum of `C` over the edges whose
    integer is `n`. -/
theorem stack3_col0_apply (wf3 : ScatterDims.WF ⟨2, ![N, 3]⟩ ⟨2, ![E, 1]⟩ ⟨2, ![E, 3]⟩ [1] [0] [0] 1)
    (hc3 : Shape.Concatenates [⟨2, ![E, 1]⟩, ⟨2, ![E, 1]⟩, ⟨2, ![E, 1]⟩] ⟨2, ![E, 3]⟩ 1) (n : Fin N) :
    Ideal.hostScatterAdd (rowScatterDims N 3 E wf3) (fun _ => z) idx
        (concatenate ⟨2, ![E, 3]⟩ 1 [⟨⟨2, ![E, 1]⟩, broadcastInDim ⟨2, ![E, 1]⟩ ![0] hbE C⟩,
          ⟨⟨2, ![E, 1]⟩, broadcastInDim ⟨2, ![E, 1]⟩ ![0] hbE S⟩,
          ⟨⟨2, ![E, 1]⟩, broadcastInDim ⟨2, ![E, 1]⟩ ![0] hbE O⟩] hc3) (ix2 n (0 : Fin 3))
      = z + ∑ e ∈ Finset.univ.filter (fun e : Fin E => (idx (ix2 e (0 : Fin 1))).toInt = (n.val : Int)), C (ix1 e) := by
  rw [scatterAdd_rows_apply]
  refine congrArg (z + ·) (Finset.sum_congr rfl fun e _ => ?_)
  rw [ConcatTriple.cols_first _ _ _ hc3 e (0 : Fin 3) (0 : Fin 1) rfl, broadcastInDim_col_apply]

/-- Column 1 at row `n`: the constant plus the sum of `S` over the same edges. -/
theorem stack3_col1_apply (wf3 : ScatterDims.WF ⟨2, ![N, 3]⟩ ⟨2, ![E, 1]⟩ ⟨2, ![E, 3]⟩ [1] [0] [0] 1)
    (hc3 : Shape.Concatenates [⟨2, ![E, 1]⟩, ⟨2, ![E, 1]⟩, ⟨2, ![E, 1]⟩] ⟨2, ![E, 3]⟩ 1) (n : Fin N) :
    Ideal.hostScatterAdd (rowScatterDims N 3 E wf3) (fun _ => z) idx
        (concatenate ⟨2, ![E, 3]⟩ 1 [⟨⟨2, ![E, 1]⟩, broadcastInDim ⟨2, ![E, 1]⟩ ![0] hbE C⟩,
          ⟨⟨2, ![E, 1]⟩, broadcastInDim ⟨2, ![E, 1]⟩ ![0] hbE S⟩,
          ⟨⟨2, ![E, 1]⟩, broadcastInDim ⟨2, ![E, 1]⟩ ![0] hbE O⟩] hc3) (ix2 n (1 : Fin 3))
      = z + ∑ e ∈ Finset.univ.filter (fun e : Fin E => (idx (ix2 e (0 : Fin 1))).toInt = (n.val : Int)), S (ix1 e) := by
  rw [scatterAdd_rows_apply]
  refine congrArg (z + ·) (Finset.sum_congr rfl fun e _ => ?_)
  rw [ConcatTriple.cols_second _ _ _ hc3 e (1 : Fin 3) (0 : Fin 1) rfl, broadcastInDim_col_apply]

/-- Column 2 at row `n`: the constant plus the sum of `O` over the same edges. -/
theorem stack3_col2_apply (wf3 : ScatterDims.WF ⟨2, ![N, 3]⟩ ⟨2, ![E, 1]⟩ ⟨2, ![E, 3]⟩ [1] [0] [0] 1)
    (hc3 : Shape.Concatenates [⟨2, ![E, 1]⟩, ⟨2, ![E, 1]⟩, ⟨2, ![E, 1]⟩] ⟨2, ![E, 3]⟩ 1) (n : Fin N) :
    Ideal.hostScatterAdd (rowScatterDims N 3 E wf3) (fun _ => z) idx
        (concatenate ⟨2, ![E, 3]⟩ 1 [⟨⟨2, ![E, 1]⟩, broadcastInDim ⟨2, ![E, 1]⟩ ![0] hbE C⟩,
          ⟨⟨2, ![E, 1]⟩, broadcastInDim ⟨2, ![E, 1]⟩ ![0] hbE S⟩,
          ⟨⟨2, ![E, 1]⟩, broadcastInDim ⟨2, ![E, 1]⟩ ![0] hbE O⟩] hc3) (ix2 n (2 : Fin 3))
      = z + ∑ e ∈ Finset.univ.filter (fun e : Fin E => (idx (ix2 e (0 : Fin 1))).toInt = (n.val : Int)), O (ix1 e) := by
  rw [scatterAdd_rows_apply]
  refine congrArg (z + ·) (Finset.sum_congr rfl fun e _ => ?_)
  rw [ConcatTriple.cols_third _ _ _ hc3 e (2 : Fin 3) (0 : Fin 1) rfl, broadcastInDim_col_apply]

/-- Column 0 of the two-column accumulation at row `n`: the constant plus the sum of `C` over the edges whose integer
    is `n`. -/
theorem stack2_col0_apply (wf2 : ScatterDims.WF ⟨2, ![N, 2]⟩ ⟨2, ![E, 1]⟩ ⟨2, ![E, 2]⟩ [1] [0] [0] 1)
    (hc2 : Shape.Concatenates [⟨2, ![E, 1]⟩, ⟨2, ![E, 1]⟩] ⟨2, ![E, 2]⟩ 1) (n : Fin N) :
    Ideal.hostScatterAdd (rowScatterDims N 2 E wf2) (fun _ => z) idx
        (concatenate ⟨2, ![E, 2]⟩ 1 [⟨⟨2, ![E, 1]⟩, broadcastInDim ⟨2, ![E, 1]⟩ ![0] hbE C⟩,
          ⟨⟨2, ![E, 1]⟩, broadcastInDim ⟨2, ![E, 1]⟩ ![0] hbE S⟩] hc2) (ix2 n (0 : Fin 2))
      = z + ∑ e ∈ Finset.univ.filter (fun e : Fin E => (idx (ix2 e (0 : Fin 1))).toInt = (n.val : Int)), C (ix1 e) := by
  rw [scatterAdd_rows_apply]
  refine congrArg (z + ·) (Finset.sum_congr rfl fun e _ => ?_)
  rw [ConcatPair.cols_left _ _ hc2 e (0 : Fin 2) (0 : Fin 1) rfl, broadcastInDim_col_apply]

/-- Column 1 of the two-column accumulation at row `n`: the constant plus the sum of `S` over the same edges. -/
theorem stack2_col1_apply (wf2 : ScatterDims.WF ⟨2, ![N, 2]⟩ ⟨2, ![E, 1]⟩ ⟨2, ![E, 2]⟩ [1] [0] [0] 1)
    (hc2 : Shape.Concatenates [⟨2, ![E, 1]⟩, ⟨2, ![E, 1]⟩] ⟨2, ![E, 2]⟩ 1) (n : Fin N) :
    Ideal.hostScatterAdd (rowScatterDims N 2 E wf2) (fun _ => z) idx
        (concatenate ⟨2, ![E, 2]⟩ 1 [⟨⟨2, ![E, 1]⟩, broadcastInDim ⟨2, ![E, 1]⟩ ![0] hbE C⟩,
          ⟨⟨2, ![E, 1]⟩, broadcastInDim ⟨2, ![E, 1]⟩ ![0] hbE S⟩] hc2) (ix2 n (1 : Fin 2))
      = z + ∑ e ∈ Finset.univ.filter (fun e : Fin E => (idx (ix2 e (0 : Fin 1))).toInt = (n.val : Int)), S (ix1 e) := by
  rw [scatterAdd_rows_apply]
  refine congrArg (z + ·) (Finset.sum_congr rfl fun e _ => ?_)
  rw [ConcatPair.cols_right _ _ hc2 e (1 : Fin 2) (0 : Fin 1) rfl, broadcastInDim_col_apply]

/-- COLUMNS 0 AND 1 of the three-column accumulation, each cut out, flattened, stood up as a column again, and the
    two joined side by side, are the accumulation of the two-column matrix `[C | S]`. -/
theorem stack3_cols01_eq_stack2
    (hbN : (⟨1, ![N]⟩ : Shape).BroadcastsInDim ⟨2, ![N, 1]⟩ (![0] : Fin 1 → Fin 2))
    (wf3 : ScatterDims.WF ⟨2, ![N, 3]⟩ ⟨2, ![E, 1]⟩ ⟨2, ![E, 3]⟩ [1] [0] [0] 1)
    (wf2 : ScatterDims.WF ⟨2, ![N, 2]⟩ ⟨2, ![E, 1]⟩ ⟨2, ![E, 2]⟩ [1] [0] [0] 1)
    (hc3 : Shape.Concatenates [⟨2, ![E, 1]⟩, ⟨2, ![E, 1]⟩, ⟨2, ![E, 1]⟩] ⟨2, ![E, 3]⟩ 1)
    (hc2 : Shape.Concatenates [⟨2, ![E, 1]⟩, ⟨2, ![E, 1]⟩] ⟨2, ![E, 2]⟩ 1)
    (hs0 : (⟨2, ![N, 3]⟩ : Shape).Slices ![0, 0] ⟨2, ![N, 1]⟩)
    (hs1 : (⟨2, ![N, 3]⟩ : Shape).Slices ![0, 1] ⟨2, ![N, 1]⟩)
    (hsc : (⟨2, ![N, 1]⟩ : Shape).ShapeCasts ⟨1, ![N]⟩)
    (hcN2 : Shape.Concatenates [⟨2, ![N, 1]⟩, ⟨2, ![N, 1]⟩] ⟨2, ![N, 2]⟩ 1) :
    concatenate ⟨2, ![N, 2]⟩ 1
        [⟨⟨2, ![N, 1]⟩, broadcastInDim ⟨2, ![N, 1]⟩ ![0] hbN (shapeCast ⟨1, ![N]⟩ (extractStridedSlice ⟨2, ![N, 1]⟩ ![0, 0]
            (Ideal.hostScatterAdd (rowScatterDims N 3 E wf3) (fun _ => z) idx
              (concatenate ⟨2, ![E, 3]⟩ 1 [⟨⟨2, ![E, 1]⟩, broadcastInDim ⟨2, ![E, 1]⟩ ![0] hbE C⟩,
                ⟨⟨2, ![E, 1]⟩, broadcastInDim ⟨2, ![E, 1]⟩ ![0] hbE S⟩,
                ⟨⟨2, ![E, 1]⟩, broadcastInDim ⟨2, ![E, 1]⟩ ![0] hbE O⟩] hc3)) hs0) hsc)⟩,
         ⟨⟨2, ![N, 1]⟩, broadcastInDim ⟨2, ![N, 1]⟩ ![0] hbN (shapeCast ⟨1, ![N]⟩ (extractStridedSlice ⟨2, ![N, 1]⟩ ![0, 1]
            (Ideal.hostScatterAdd (rowScatterDims N 3 E wf3) (fun _ => z) idx
              (concatenate ⟨2, ![E, 3]⟩ 1 [⟨⟨2, ![E, 1]⟩, broadcastInDim ⟨2, ![E, 1]⟩ ![0] hbE C⟩,
                ⟨⟨2, ![E, 1]⟩, broadcastInDim ⟨2, ![E, 1]⟩ ![0] hbE S⟩,
                ⟨⟨2, ![E, 1]⟩, broadcastInDim ⟨2, ![E, 1]⟩ ![0] hbE O⟩] hc3)) hs1) hsc)⟩] hcN2
      = Ideal.hostScatterAdd (rowScatterDims N 2 E wf2) (fun _ => z) idx
          (concatenate ⟨2, ![E, 2]⟩ 1 [⟨⟨2, ![E, 1]⟩, broadcastInDim ⟨2, ![E, 1]⟩ ![0] hbE C⟩,
            ⟨⟨2, ![E, 1]⟩, broadcastInDim ⟨2, ![E, 1]⟩ ![0] hbE S⟩] hc2) := by
  funext j
  obtain ⟨n, c, rfl⟩ : ∃ (n : Fin N) (c : Fin 2), j = ix2 n c := ⟨j 0, j 1, eq_ix2 j⟩
  match c with
  | ⟨0, _⟩ =>
    refine (ConcatPair.cols_left _ _ hcN2 n _ (0 : Fin 1) rfl).trans ?_
    rw [col_cut_apply 0 _ hs0 hsc hbN n (0 : Fin 1) (0 : Fin 3) rfl, stack3_col0_apply]
    exact (stack2_col0_apply z idx C S hbE wf2 hc2 n).symm
  | ⟨1, _⟩ =>
    refine (ConcatPair.cols_right _ _ hcN2 n _ (0 : Fin 1) rfl).trans ?_
    rw [col_cut_apply 1 _ hs1 hsc hbN n (0 : Fin 1) (1 : Fin 3) rfl, stack3_col1_apply]
    exact (stack2_col1_apply z idx C S hbE wf2 hc2 n).symm

/-- COLUMN 2 of the three-column accumulation, cut out and flattened, is the accumulation of `O` into the constant
    vector. -/
theorem stack3_col2_eq_vec
    (wf3 : ScatterDims.WF ⟨2, ![N, 3]⟩ ⟨2, ![E, 1]⟩ ⟨2, ![E, 3]⟩ [1] [0] [0] 1)
    (wf1 : ScatterDims.WF ⟨1, ![N]⟩ ⟨2, ![E, 1]⟩ ⟨1, ![E]⟩ [] [0] [0] 1)
    (hc3 : Shape.Concatenates [⟨2, ![E, 1]⟩, ⟨2, ![E, 1]⟩, ⟨2, ![E, 1]⟩] ⟨2, ![E, 3]⟩ 1)
    (hs2 : (⟨2, ![N, 3]⟩ : Shape).Slices ![0, 2] ⟨2, ![N, 1]⟩)
    (hsc : (⟨2, ![N, 1]⟩ : Shape).ShapeCasts ⟨1, ![N]⟩) :
    shapeCast ⟨1, ![N]⟩ (extractStridedSlice ⟨2, ![N, 1]⟩ ![0, 2]
        (Ideal.hostScatterAdd (rowScatterDims N 3 E wf3) (fun _ => z) idx
          (concatenate ⟨2, ![E, 3]⟩ 1 [⟨⟨2, ![E, 1]⟩, broadcastInDim ⟨2, ![E, 1]⟩ ![0] hbE C⟩,
            ⟨⟨2, ![E, 1]⟩, broadcastInDim ⟨2, ![E, 1]⟩ ![0] hbE S⟩,
            ⟨⟨2, ![E, 1]⟩, broadcastInDim ⟨2, ![E, 1]⟩ ![0] hbE O⟩] hc3)) hs2) hsc
      = Ideal.hostScatterAdd (vecScatterDims N E wf1) (fun _ => z) idx O := by
  funext j
  obtain ⟨n, rfl⟩ : ∃ n : Fin N, j = ix1 n := ⟨j 0, eq_ix1 j⟩
  rw [shapeCast_col_apply, slice2_axis1_apply 2 _ hs2 n (0 : Fin 1) (2 : Fin 3) rfl, stack3_col2_apply,
    scatterAdd_vec_apply]

end Stack

end Cert.Lib

end
-- ==== Proof.AggregateLaw.lean ====
/-
  Aggregating weighted rows and then applying a linear map, against applying the linear map to each row and then
  aggregating. Independent of any program.

  Over a finite set S of edges let edge e carry a row a(e, ·) of K numbers and a weight ν(e), and let w(·) be one row of
  a K-column weight matrix. Then

      Σ_k ( Σ_{e ∈ S} a(e,k)·ν(e) ) · w(k)  =  Σ_{e ∈ S} ( Σ_k a(e,k)·w(k) ) · ν(e),

  which is distributivity and an exchange of two finite sums. On the extended reals distributivity fails at the
  infinities, so the law is stated for entries each known to be a real number; both accumulations start from zero, as an
  accumulation into a zero array does.
-/
import Idealize.ShloMosaic.PureOps.Ideal
import Mathlib.Algebra.BigOperators.Fin

noncomputable section

namespace Cert.AggregateLaw

/-- A finite sum of real numbers, taken in the extended reals, is the real sum. -/
theorem coe_sum {ι : Type} (S : Finset ι) (f : ι → ℝ) :
    ∑ e ∈ S, ((f e : ℝ) : EReal) = ((∑ e ∈ S, f e : ℝ) : EReal) := by
  classical
  induction S using Finset.induction_on with
  | empty => simp
  | insert a s ha ih => rw [Finset.sum_insert ha, Finset.sum_insert ha, ih, EReal.coe_add]

/-- A finite sum of extended reals each of which is a real number is a real number. -/
theorem sum_real {ι : Type} (S : Finset ι) (f : ι → EReal) (h : ∀ e, ∃ r : ℝ, f e = r) :
    ∃ r : ℝ, ∑ e ∈ S, f e = r := by
  choose g hg using h
  exact ⟨∑ e ∈ S, g e, by simp only [hg]; exact coe_sum S g⟩

/-- A product of two real numbers in the extended reals is a real number. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- THE LAW: the linear map applied to the aggregate is the aggregate of the linear map's values, for real entries. -/
theorem aggregate_project {ι : Type} {K : Nat} (S : Finset ι) (A : ι → Fin K → EReal) (ν : ι → EReal)
    (W : Fin K → EReal) (hA : ∀ e k, ∃ r : ℝ, A e k = r) (hν : ∀ e, ∃ r : ℝ, ν e = r) (hW : ∀ k, ∃ r : ℝ, W k = r) :
    ∑ k : Fin K, ((0 : EReal) + ∑ e ∈ S, A e k * ν e) * W k
      = (0 : EReal) + ∑ e ∈ S, (∑ k : Fin K, A e k * W k) * ν e := by
  choose a ha using hA
  choose n hn using hν
  choose w hw using hW
  simp only [ha, hn, hw, zero_add, ← EReal.coe_mul, coe_sum]
  refine congrArg _ ?_
  simp only [Finset.sum_mul]
  rw [Finset.sum_comm]
  exact Finset.sum_congr rfl fun e _ => Finset.sum_congr rfl fun k _ => by ring

end Cert.AggregateLaw

end
-- ==== Proof.EdgeNormReal.lean ====
/-
  The symmetric normalisation of the edges is a real number on every edge.

  With self-loops appended, edge e has a weight w(e): the given edge attribute on the first 320000 edges and 1 on the
  50000 self-loops. The degree of node n is deg(n) = Σ_{e : col e = n} w(e), accumulated into zeros; its inverse square
  root is dinv(n) = 1/√deg(n) where deg(n) > 0 and 0 elsewhere; and the normalisation of edge e is
  norm(e) = dinv(row e) · w(e) · dinv(col e), the two dinv factors read through a gather.

  When every edge attribute is a real number, so is every w(e); a finite sum of reals is real, so every deg(n) is; the
  guard deg(n) > 0 keeps the inverse square root away from 0 (where it is +∞) and from the negatives, so every dinv(n)
  is a real; a gather reads SOME entry of dinv, whatever the index; hence every norm(e) is a product of three reals.
  This is what lets the normalisation be moved across a sum on the extended reals.
-/
import proofs.«160430_j62921270886996_2_alg».proof.Proof.Gen.ReferenceIdeal.Read
import proofs.«160430_j62921270886996_2_alg».proof.Proof.LibEdgeStack
import proofs.«160430_j62921270886996_2_alg».proof.Proof.LibHostScatterExact
import proofs.«160430_j62921270886996_2_alg».proof.Proof.AggregateLaw
import Idealize.ShloMosaic.Lib.IdealHost
import Idealize.ShloMosaic.PureOps.Ideal.Laws

noncomputable section

namespace Cert.EdgeNorm

open Idealize.ShloMosaic Idealize.ShloMosaic.ValueIdx Cert.ReferenceIdeal Cert.ReferenceIdeal.Read Cert.Lib Cert.AggregateLaw
open Cert.ReferenceIdeal.Facts₀ Cert.ReferenceIdeal.Facts

/-- A gather reads, at every result index, some entry of its operand: entries of an all-real operand are real. -/
theorem gather_real {s si t : Shape} {w : Nat} (d : GatherDims s si t) (x : s.Idx → EReal) (idx : IVec si w)
    (hx : ∀ j, ∃ q : ℝ, x j = q) (i : t.Idx) : ∃ q : ℝ, Host.gather d x idx i = q := hx _

variable (x1 : (⟨S2x320000, .i32⟩ : BufTy).Contents (Elt Ideal)) (x2 : (⟨S320000, .f32⟩ : BufTy).Contents (Elt Ideal))

/-- The weight of every edge is real: an edge attribute, or the 1 of a self-loop. -/
theorem weight_real (h2 : ∀ i, ∃ r : ℝ, x2 i = r) (i : S370000.Idx) :
    ∃ r : ℝ, val_main_v8 (F := Ideal) x2 i = r := by
  obtain ⟨j, rfl⟩ : ∃ j : Fin 370000, i = ix1 j := ⟨i 0, eq_ix1 i⟩
  by_cases hj : j.val < 320000
  · obtain ⟨r, hr⟩ := h2 (ix1 (⟨j.val, hj⟩ : Fin 320000))
    exact ⟨r, (ConcatPair.vec_left x2 (val_main_v7 (F := Ideal)) concatenates_S320000_S50000_S370000_d0 j
      ⟨j.val, hj⟩ rfl).trans hr⟩
  · have hlt := j.isLt
    refine ⟨1, (ConcatPair.vec_right x2 (val_main_v7 (F := Ideal)) concatenates_S320000_S50000_S370000_d0 j
      (⟨j.val - 320000, by omega⟩ : Fin 50000) (by show j.val - 320000 + 320000 = j.val; omega)).trans ?_⟩
    rw [val_main_v7_apply, val_main_cst_apply, Ideal.ofBits_def, Ideal.ofBits_one_f32]
    rfl

/-- The degree of every node is real: zero plus a finite sum of real weights. -/
theorem degree_real (h2 : ∀ i, ∃ r : ℝ, x2 i = r) (i : S50000.Idx) :
    ∃ r : ℝ, val_main_v11 (F := Ideal) x1 x2 i = r := by
  obtain ⟨n, rfl⟩ : ∃ n : Fin 50000, i = ix1 n := ⟨i 0, eq_ix1 i⟩
  have e : val_main_v11 (F := Ideal) x1 x2
      = Ideal.hostScatterAdd (vecScatterDims 50000 370000 scatter_S50000_S370000x1_S370000_n_0_0_1_wf)
          (val_main_v9 (F := Ideal)) (val_main_v10 (F := Ideal) x1) (val_main_v8 (F := Ideal) x2) :=
    host_scatter_eq _ _ _ _
  rw [e, scatterAdd_vec_apply]
  obtain ⟨s, hs⟩ := sum_real
    (Finset.univ.filter fun e : Fin 370000 => (val_main_v10 (F := Ideal) x1 (ix2 e (0 : Fin 1))).toInt = (n.val : Int))
    (fun e => val_main_v8 (F := Ideal) x2 (ix1 e)) (fun e => weight_real x2 h2 _)
  refine ⟨s, ?_⟩
  rw [hs, val_main_v9_apply, val_main_cst_0_apply, Ideal.ofBits_def, Ideal.ofBits_zero_f32, zero_add]

/-- The guarded inverse square root of every degree is real: 1/√deg where deg > 0, and 0 elsewhere. -/
theorem dinv_real (h2 : ∀ i, ∃ r : ℝ, x2 i = r) (i : S50000.Idx) :
    ∃ r : ℝ, val_main_v15 (F := Ideal) x1 x2 i = r := by
  obtain ⟨d, hd⟩ := degree_real x1 x2 h2 i
  have h12 : val_main_v12 (F := Ideal) i = 0 := by
    rw [val_main_v12_apply, val_main_cst_1_apply, Ideal.ofBits_def, Ideal.ofBits_zero_f32]
  have hc1 : val_main_call0_v1 (F := Ideal) i = 0 := by
    rw [val_main_call0_v1_apply, val_main_call0_v0_apply, val_main_cst_2_apply, Ideal.ofBits_def, Ideal.ofBits_zero_f32]
  rw [val_main_v15_apply, val_main_v13_apply, val_main_v14_apply, hd, h12, hc1, Ideal.cmpf_def,
    Ideal.hostUnary_rsqrt_def]
  by_cases hpos : (0 : EReal) < (d : EReal)
  · have hd0 : 0 < d := by exact_mod_cast hpos
    refine ⟨(Real.sqrt d)⁻¹, ?_⟩
    have hc : Ideal.cmp .ogt (d : EReal) 0 = 1#1 := by simp [Ideal.cmp, hpos]
    rw [hc]
    simp [Scalar.select, Ideal.rsqrt_coe, not_lt.mpr hd0.le, hd0.ne']
  · refine ⟨0, ?_⟩
    have hc : Ideal.cmp .ogt (d : EReal) 0 = 0#1 := by simp [Ideal.cmp, hpos]
    rw [hc]
    simp [Scalar.select]

/-- THE NORMALISATION OF EVERY EDGE IS REAL: a product of a gathered dinv, the edge's weight and a gathered dinv. -/
theorem norm_real (h2 : ∀ i, ∃ r : ℝ, x2 i = r) (i : S370000.Idx) :
    ∃ r : ℝ, val_main_v31 (F := Ideal) x1 x2 i = r := by
  rw [val_main_v31_apply, val_main_v23_apply]
  simp only [Ideal.mulf_def]
  exact mul_real (mul_real (gather_real _ _ _ (dinv_real x1 x2 h2) i) (weight_real x2 h2 i))
    (gather_real _ _ _ (dinv_real x1 x2 h2) i)

end Cert.EdgeNorm

end
-- ==== Proof.Bridge.lean ====
/-
  The kernel's result and the reference's result are one function of the arguments.

  The kernel aggregates first and transforms after: entry (n, j) of its result is

      x(n, j) + max( (Σ_k (0 + Σ_{e : col e = n} x(src e, k) · norm(e)) · W(j, k)) + b(j), 0 ),

  the transposed weight read back as W(j, k) and the bias row as b(j). The reference transforms first and aggregates
  after: x(n, j) + max( (0 + Σ_{e : col e = n} (Σ_k x(src e, k) · W(j, k)) · norm(e)) + b(j), 0 ). The edge sets, the
  source rows and the normalisation are the same stages on both sides, so the two agree as soon as the linear map may
  be moved across the aggregation — the aggregate law, which holds because the node features and the weight are real by
  the precondition and the normalisation is real whenever the edge attributes are.
-/
import proofs.«160430_j62921270886996_2_alg».proof.Proof.KernelValue
import proofs.«160430_j62921270886996_2_alg».proof.Proof.ReferenceRead
import proofs.«160430_j62921270886996_2_alg».proof.Proof.EdgeNormReal
import proofs.«160430_j62921270886996_2_alg».proof.Proof.AggregateLaw
import Idealize.ShloMosaic.Lib.Pipeline.Value

noncomputable section

namespace Cert.GcnBridge

open Idealize.ShloMosaic Idealize.ShloMosaic.ValueIdx Cert.ReferenceIdeal Cert.ReferenceIdeal.Read Cert.Lib
open Cert.GcnRead Cert.GcnKernel

variable (a0 : (⟨S50000x256, .f32⟩ : BufTy).Contents (Elt Ideal)) (a1 : (⟨S2x320000, .i32⟩ : BufTy).Contents (Elt Ideal))
  (a2 : (⟨S320000, .f32⟩ : BufTy).Contents (Elt Ideal)) (a3 : (⟨S256x256, .f32⟩ : BufTy).Contents (Elt Ideal))
  (a4 : (⟨S256, .f32⟩ : BufTy).Contents (Elt Ideal))

/-- The kernel's aggregated features over the named stages. -/
abbrev aggregated : S50000x256.Idx → EReal :=
  Host.scatterAdd (F := Ideal) (φ := .f32) Cert.KernelIdeal.scatter_S50000x256_S370000x1_S370000x256_1_0_0_1
    (val_main_v44 (F := Ideal)) (val_main_v45 (F := Ideal) a1)
    (mulf (F := Ideal) (φ := .f32)
      (Host.gather (α := EReal) Cert.KernelIdeal.gather_S50000x256_S370000x1_S370000x256_1_0_n_n_0_1_1256 a0
        (val_main_v39 (F := Ideal) a1))
      (val_main_v42 (F := Ideal) a1 a2))

/-- THE AGGREGATED FEATURES AT (n, k): zero plus, over the edges into n, the source row's entry k times the edge's
    normalisation. -/
theorem aggregated_apply (n : Fin 50000) (k : Fin 256) :
    aggregated a0 a1 a2 (ix2 n k)
      = (0 : EReal) + ∑ e ∈ edgesInto (val_main_v45 (F := Ideal) a1) n,
          a0 (ix2 (src (val_main_v39 (F := Ideal) a1) e) k) * val_main_v31 (F := Ideal) a1 a2 (ix1 e) := by
  have e : aggregated a0 a1 a2
      = Ideal.hostScatterAdd
          (rowScatterDims 50000 256 370000 Cert.KernelIdeal.Facts₀.scatter_S50000x256_S370000x1_S370000x256_1_0_0_1_wf)
          (val_main_v44 (F := Ideal)) (val_main_v45 (F := Ideal) a1)
          (mulf (F := Ideal) (φ := .f32)
            (Host.gather (α := EReal) Cert.KernelIdeal.gather_S50000x256_S370000x1_S370000x256_1_0_n_n_0_1_1256 a0
              (val_main_v39 (F := Ideal) a1))
            (val_main_v42 (F := Ideal) a1 a2)) :=
    host_scatter_eq _ _ _ _
  have hz : val_main_v44 (F := Ideal) (ix2 n k) = 0 := by
    rw [val_main_v44_apply, val_main_cst_8_apply, Ideal.ofBits_def, Ideal.ofBits_zero_f32]
  rw [e, scatterAdd_rows_apply, hz]
  refine congrArg (fun s => (0 : EReal) + s) (Finset.sum_congr rfl fun e _ => ?_)
  have hg : Host.gather (α := EReal) Cert.KernelIdeal.gather_S50000x256_S370000x1_S370000x256_1_0_n_n_0_1_1256 a0
      (val_main_v39 (F := Ideal) a1) (ix2 e k) = a0 (ix2 (src (val_main_v39 (F := Ideal) a1) e) k) :=
    gather_rows_apply nodes_pos Cert.KernelIdeal.Facts₀.gather_S50000x256_S370000x1_S370000x256_1_0_n_n_0_1_1256_wf a0 _ e k
  rw [mulf_apply, hg, norm_spread_apply]

/-- The bias vector stood up as a row, at (0, j), is the bias at j. -/
theorem bias_row_apply (h : S256.ShapeCasts S1x256) (j : Fin 256) :
    shapeCast S1x256 a4 h (ix2 (0 : Fin 1) j) = a4 (ix1 j) :=
  shapeCast_apply a4 h _ _ (by
    rw [Shape.rowMajor_val_two, Shape.rowMajor_val_one]
    show j.val = 0 * 256 + j.val
    omega)

/-- THE TWO RESULTS ARE ONE FUNCTION: the kernel's whole-array function of the arrays the host leaves is the reference's
    result, for real node features, edge attributes and weight. -/
theorem fused_eq_reference (h : S256.ShapeCasts S1x256) (h0 : ∀ i, ∃ r : ℝ, a0 i = r) (h2 : ∀ i, ∃ r : ℝ, a2 i = r)
    (h3 : ∀ i, ∃ r : ℝ, a3 i = r) :
    fused (aggregated a0 a1 a2) a0 (val_main_v32 (F := Ideal) a3) (shapeCast S1x256 a4 h)
      = val_main_v51 (F := Ideal) a0 a1 a2 a3 a4 := by
  funext i
  obtain ⟨n, j, rfl⟩ : ∃ (n : Fin 50000) (j : Fin 256), i = ix2 n j := ⟨i 0, i 1, eq_ix2 i⟩
  rw [reference_apply]
  show a0 (ix2 n j) + max ((∑ k : Fin 256, aggregated a0 a1 a2 (ix2 n k) * val_main_v32 (F := Ideal) a3 (ix2 k j))
      + shapeCast S1x256 a4 h (ix2 (0 : Fin 1) j)) 0 = _
  rw [bias_row_apply]
  simp only [aggregated_apply, transposed_weight_apply]
  rw [Cert.AggregateLaw.aggregate_project (edgesInto (val_main_v45 (F := Ideal) a1) n)
    (fun e k => a0 (ix2 (src (val_main_v39 (F := Ideal) a1) e) k))
    (fun e => val_main_v31 (F := Ideal) a1 a2 (ix1 e)) (fun k => a3 (ix2 j k))
    (fun e k => h0 _) (fun e => Cert.EdgeNorm.norm_real a1 a2 h2 _) (fun k => h3 _)]

end Cert.GcnBridge

end
-- ==== Proof.FiniteInputs.lean ====
/-
  What the precondition says of the float inputs: every entry is a real number.

  The precondition is the conjunction, over the node features, the edge attributes, the weight and the bias, of
  "every entry x has |x| < +∞", each an all-reduction by "and" of the entrywise comparison. On the extended reals |x| is
  max(x, −x), which is +∞ at both infinities, so |x| < +∞ holds exactly when x is a real number.
-/
import proofs.«160430_j62921270886996_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- UNDER THE PRECONDITION the node features, the edge attributes and the weight hold real numbers only. -/
theorem reals_of_pre [Cert.Pre_finite_inputs.Facts] (a0 : FVec Ideal S50000x256 .f32) (a1 : IVec S2x320000 32)
    (a2 : FVec Ideal S320000 .f32) (a3 : FVec Ideal S256x256 .f32) (a4 : FVec Ideal S256 .f32)
    (h : fn (F := Ideal) a0 a1 a2 a3 a4 = fun _ => 1#1) :
    (∀ i, ∃ r : ℝ, a0 i = r) ∧ (∀ i, ∃ r : ℝ, a2 i = r) ∧ (∀ i, ∃ r : ℝ, a3 i = r) := by
  have h0 := congrFun h ValueIdx.ix0
  dsimp only [fn, fn_part1] at h0
  simp only [andi, IntOp.andi_eq_one] at h0
  obtain ⟨⟨⟨hx, he⟩, hw⟩, _⟩ := h0
  exact ⟨fun i => real_of_abs_lt _ (Host.reduce_andi_all _ _ _ _ _ hx i),
    fun i => real_of_abs_lt _ (Host.reduce_andi_all _ _ _ _ _ he i),
    fun i => real_of_abs_lt _ (Host.reduce_andi_all _ _ _ _ _ hw i)⟩

end Cert.FiniteInputs

end
-- ==== Proof.lean ====
/-
  The certificate of the fused graph-convolution stage against its reference.

  Both programs compute, from the edge list and the edge attributes, the same source and target index arrays (with the
  self-loops appended) and the same symmetric normalisation norm(e) of every edge, by the same operations. The reference
  then transforms the node features, h = x · Wᵀ, gathers h at each edge's source, scales by norm(e), accumulates at the
  edge's target, adds the bias, clamps at zero and adds x. The kernel gathers x itself at each edge's source, scales by
  norm(e), accumulates at the target on the host, and only then, in 25 row blocks, multiplies by Wᵀ, adds the bias,
  clamps at zero and adds x. On the extended reals the two results agree entry by entry because a linear map may be moved
  across a weighted aggregation of REAL entries: the node features and the weight are real by the precondition, and the
  normalisation is real because the degree guard keeps the inverse square root on positive reals.

  The frames of the two kernel programs are the generated ones; the reference's frame is its generated run with the result
  dropped; the idealisation rewrote nothing, so there is nothing to preserve; the algebraic claim names both results by the
  reference's result term of the kernel's arguments.
-/
import proofs.«160430_j62921270886996_2_alg».proof.Defs
import proofs.«160430_j62921270886996_2_alg».proof.Proof.Gen.Kernel
import proofs.«160430_j62921270886996_2_alg».proof.Proof.Gen.Kernel.Skeleton
import proofs.«160430_j62921270886996_2_alg».proof.Proof.Gen.Kernel.Launch
import proofs.«160430_j62921270886996_2_alg».proof.Proof.Gen.Kernel.Points
import proofs.«160430_j62921270886996_2_alg».proof.Proof.Gen.Kernel.Frame
import proofs.«160430_j62921270886996_2_alg».proof.Proof.Gen.KernelIdeal
import proofs.«160430_j62921270886996_2_alg».proof.Proof.Gen.KernelIdeal.Skeleton
import proofs.«160430_j62921270886996_2_alg».proof.Proof.Gen.KernelIdeal.Launch
import proofs.«160430_j62921270886996_2_alg».proof.Proof.Gen.KernelIdeal.Points
import proofs.«160430_j62921270886996_2_alg».proof.Proof.Gen.KernelIdeal.Frame
import proofs.«160430_j62921270886996_2_alg».proof.Proof.Gen.ReferenceIdeal
import proofs.«160430_j62921270886996_2_alg».proof.Proof.Gen.KernelIdeal.Value
import proofs.«160430_j62921270886996_2_alg».proof.Proof.Gen.ReferenceIdeal.Run
import proofs.«160430_j62921270886996_2_alg».proof.Proof.Gen.ReferenceIdeal.Read
import proofs.«160430_j62921270886996_2_alg».proof.Proof.Gen.Pre_finite_inputs
import proofs.«160430_j62921270886996_2_alg».proof.Proof.KernelValue
import proofs.«160430_j62921270886996_2_alg».proof.Proof.KernelPrefix
import proofs.«160430_j62921270886996_2_alg».proof.Proof.Bridge
import proofs.«160430_j62921270886996_2_alg».proof.Proof.FiniteInputs
import Idealize.ShloMosaic.Adequacy
import Idealize.ShloMosaic.Init

noncomputable section

namespace Cert.Proof

open Idealize.ShloMosaic Idealize.ShloMosaic.TcCoe Idealize.SL.Sem

/-- THE KERNEL'S RESULT ARRAY after the run is the reference's result term of the kernel's own arguments: the blocks
    assemble to one function of the arrays the host leaves, those arrays are the named stages, and the two functions agree
    on real inputs. -/
theorem kernel_result (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (Cert.KernelIdeal.Gen.dats m 0 c).arrAt 4 Cert.KernelIdeal.cfg0.N
      = Cert.ReferenceIdeal.Read.val_main_v51 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  obtain ⟨h0, h2, h3⟩ := Cert.FiniteInputs.reals_of_pre _ _ _ _ _ (hpre c)
  rw [Cert.GcnKernel.final m c, Cert.KernelIdeal.Gen.V_main_arg0 m c, Cert.GcnKernel.aggregated_eq m c,
    Cert.GcnKernel.weight_eq m c, Cert.GcnKernel.bias_eq m c]
  exact Cert.GcnBridge.fused_eq_reference _ _ _ _ _ _ h0 h2 h3

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- At Ideal the kernel's result array ends at the reference's result term of the kernel's arguments (kernel_result over
    the generated run with the output named), and the reference's at the same term of its own arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v51 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (kernel_result m hpre c), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v51_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
